-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x2048 : Shape := ⟨4, ![2, 8, 2048, 2048]⟩
abbrev S_ : Shape := ⟨0, ![]⟩

class Facts : Prop where
  bcast_S_S2x8x2048x2048 : S_.BroadcastsInDim S2x8x2048x2048 (![] : Fin 0 → Fin S2x8x2048x2048.rank)
  reducesTo_S2x8x2048x2048_S_d0_1_2_3 : S2x8x2048x2048.ReducesTo [0, 1, 2, 3] S_
  h_S_ : 0 < S_.numel

variable [Facts]

def fn {F : FTy → Type} [FloatOps F] (main_arg0 : FVec F S2x8x2048x2048 .f32) : IVec S_ 1 :=
  let main_v0 : FVec F S2x8x2048x2048 .f32 := Host.absf main_arg0
  let main_cst : FVec F S_ .f32 := constant S_ .f32 0x7F800000#32
  let main_v1 : FVec F S2x8x2048x2048 .f32 := broadcastInDim S2x8x2048x2048 ![] bcast_S_S2x8x2048x2048 main_cst
  let main_v2 : IVec S2x8x2048x2048 1 := cmpf .olt main_v0 main_v1
  let main_c : IVec S_ 1 := constantI S_ 1 1#1
  let main_v3 : IVec S_ 1 := (fun x v => Host.reduce IntOp.andi x v reducesTo_S2x8x2048x2048_S_d0_1_2_3 h_S_) main_v2 main_c
  main_v3
-- ==== Kernel.lean ====
abbrev S2x8x2048x2048 : Shape := ⟨4, ![2, 8, 2048, 2048]⟩
abbrev S16x2048x2048 : Shape := ⟨3, ![16, 2048, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S2x8x2048x2048, .f32⟩
  | .hbm, ⟨1, _⟩ => ⟨S16x2048x2048, .f32⟩
  | .hbm, ⟨2, _⟩ => ⟨S16x2048x2048, .f32⟩
  | .hbm, ⟨3, _⟩ => ⟨S2x8x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | _, _ => ⟨S2x8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S2x8x2048x2048_S16x2048x2048 : S2x8x2048x2048.ShapeCasts S16x2048x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  iota_S256x2048_d0_w32 : S256x2048.Iotas .tc 32 [0]
  iota_S256x2048_d1_w32 : S256x2048.Iotas .tc 32 [1]
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S16x2048x2048_S2x8x2048x2048 : S16x2048x2048.ShapeCasts S2x8x2048x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S16x2048x2048.size a
  hwx0_0 : ∀ i : grid0.Coords, EltTy.bits .f32 = 32 ∨ (Rect.block (s := S16x2048x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S16x2048x2048.size a
  hwx0_1 : ∀ i : grid0.Coords, EltTy.bits .f32 = 32 ∨ (Rect.block (s := S16x2048x2048) S1x256x2048.size (cc0_transform_1 i) (hinb0_1 i)).WholeWords (EltTy.packing .f32)

variable [Facts₀]

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x8x2048x2048 : Shape := ⟨4, ![2, 8, 2048, 2048]⟩
abbrev S_ : Shape := ⟨0, ![]⟩
abbrev S2048x2048 : Shape := ⟨2, ![2048, 2048]⟩
abbrev S2x8x2048 : Shape := ⟨3, ![2, 8, 2048]⟩
abbrev S2x8x2048x1 : Shape := ⟨4, ![2, 8, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x8x2048x2048, .f32⟩
  | .hbm, ⟨1, _⟩ => ⟨S_, .f32⟩
  | .hbm, ⟨2, _⟩ => ⟨S2x8x2048x2048, .f32⟩
  | .hbm, ⟨3, _⟩ => ⟨S2x8x2048x2048, .f32⟩
  | .hbm, ⟨4, _⟩ => ⟨S_, .f32⟩
  | .hbm, ⟨5, _⟩ => ⟨S2x8x2048x2048, .f32⟩
  | .hbm, ⟨6, _⟩ => ⟨S2x8x2048x2048, .f32⟩
  | .hbm, ⟨7, _⟩ => ⟨S2x8x2048x2048, .f32⟩
  | .hbm, ⟨8, _⟩ => ⟨S_, .f32⟩
  | .hbm, ⟨9, _⟩ => ⟨S2x8x2048x2048, .f32⟩
  | .hbm, ⟨10, _⟩ => ⟨S2x8x2048x2048, .f32⟩
  | .hbm, ⟨11, _⟩ => ⟨S2x8x2048x2048, .f32⟩
  | .hbm, ⟨12, _⟩ => ⟨S2x8x2048x2048, .f32⟩
  | .hbm, ⟨13, _⟩ => ⟨S_, .f32⟩
  | .hbm, ⟨14, _⟩ => ⟨S2x8x2048x2048, .f32⟩
  | .hbm, ⟨15, _⟩ => ⟨S2x8x2048x2048, .f32⟩
  | .hbm, ⟨16, _⟩ => ⟨S2x8x2048x2048, .f32⟩
  | .hbm, ⟨17, _⟩ => ⟨S_, .i1⟩
  | .hbm, ⟨18, _⟩ => ⟨S2048x2048, .i1⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .i1⟩
  | .hbm, ⟨26, _⟩ => ⟨S2048x2048, .i1⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S2x8x2048x2048, .i1⟩
  | .hbm, ⟨31, _⟩ => ⟨S2x8x2048x2048, .f32⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S2x8x2048x1, .f32⟩
  | .hbm, ⟨36, _⟩ => ⟨S_, .f32⟩
  | .hbm, ⟨37, _⟩ => ⟨S2x8x2048x1, .f32⟩
  | .hbm, ⟨38, _⟩ => ⟨S2x8x2048x1, .f32⟩
  | .hbm, ⟨39, _⟩ => ⟨S2x8x2048x2048, .f32⟩
  | .hbm, ⟨40, _⟩ => ⟨S2x8x2048x2048, .f32⟩
  | _, _ => ⟨S2x8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v13 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]

class Facts₀ : Prop where
  bcast_S_S2x8x2048x2048 : S_.BroadcastsInDim S2x8x2048x2048 (![] : Fin 0 → Fin S2x8x2048x2048.rank)
  bcast_S_S2048x2048 : S_.BroadcastsInDim S2048x2048 (![] : Fin 0 → Fin S2048x2048.rank)
  bcast_S2048x2048_S2x8x2048x2048_2_3 : S2048x2048.BroadcastsInDim S2x8x2048x2048 (![2, 3] : Fin 2 → Fin S2x8x2048x2048.rank)
  reducesTo_S2x8x2048x2048_S2x8x2048_d3 : S2x8x2048x2048.ReducesTo [3] S2x8x2048
  h_S_ : 0 < S_.numel
  bcast_S2x8x2048_S2x8x2048x1_0_1_2 : S2x8x2048.BroadcastsInDim S2x8x2048x1 (![0, 1, 2] : Fin 3 → Fin S2x8x2048x1.rank)
  bcast_S_S2x8x2048x1 : S_.BroadcastsInDim S2x8x2048x1 (![] : Fin 0 → Fin S2x8x2048x1.rank)
  bcast_S2x8x2048x1_S2x8x2048x2048_0_1_2_3 : S2x8x2048x1.BroadcastsInDim S2x8x2048x2048 (![0, 1, 2, 3] : Fin 4 → Fin S2x8x2048x2048.rank)

variable [Facts₀]

class Facts : Prop extends Facts₀ where

variable [Facts]
-- ==== Proof.Spec.lean ====
/-
  The function both programs compute, on the extended reals.

  For one row `x` of 2048 entries sitting at row position `r` of its 2048 × 2048 matrix, the entry at column `k` is
  first mapped to the square of the "squareplus" of `2 · (x k − ½)`, that is to
      w(v) = (½ · (a + √(a² + 4)))²  with  a = 2 · (v − ½),
  then kept where the column is at or below the diagonal (`k ≤ r`) and replaced by zero above it, and finally divided by
  the sum of the kept values of its row plus the constant the literal `0x2B8CBCCC` denotes.  The constants stay the
  bit patterns the two programs share: the same word denotes the same extended real on both sides, so none is evaluated.

  `rows4` applies this to every row of a [2, 8, 2048, 2048] array, `rows3` to every row of the same data laid out as
  [16, 2048, 2048]; `rows_reshape` says that re-laying the array, applying `rows3` and re-laying back is `rows4`: a
  row keeps its entries and its position `r`, only the two leading coordinates (b, h) are fused to b · 8 + h.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.CausalRows

open Idealize.ShloMosaic Idealize.ShloMosaic.ValueIdx

/-- `a = 2 · (v − ½)`. -/
def arg (v : EReal) : EReal := Ideal.ofBits .f32 0x40000000#32 * (v - Ideal.ofBits .f32 0x3F000000#32)

/-- `w(v) = (½ · (a + √(a² + 4)))²`. -/
def weight (v : EReal) : EReal :=
  (Ideal.ofBits .f32 0x3F000000#32 * (arg v + Ideal.sqrt (arg v * arg v + Ideal.ofBits .f32 0x40800000#32)))
    * (Ideal.ofBits .f32 0x3F000000#32 * (arg v + Ideal.sqrt (arg v * arg v + Ideal.ofBits .f32 0x40800000#32)))

/-- The weight of column `k` of a row at position `r`, kept at or below the diagonal and zero above it. -/
def masked (row : Fin 2048 → EReal) (r : ℕ) (k : Fin 2048) : EReal :=
  if k.val ≤ r then weight (row k) else Ideal.ofBits .f32 0x00000000#32

/-- The kept weight divided by its row's sum of kept weights plus the small constant. -/
def normalized (row : Fin 2048 → EReal) (r : ℕ) (k : Fin 2048) : EReal :=
  Ideal.div (masked row r k) ((∑ j : Fin 2048, masked row r j) + Ideal.ofBits .f32 0x2B8CBCCC#32)

abbrev A4 : Shape := ⟨4, ![2, 8, 2048, 2048]⟩
abbrev A3 : Shape := ⟨3, ![16, 2048, 2048]⟩

/-- Every row of a [2, 8, 2048, 2048] array normalized. -/
def rows4 (x : A4.Idx → EReal) : A4.Idx → EReal :=
  fun i => normalized (fun k => x (ix4 (i 0 : Fin 2) (i 1 : Fin 8) (i 2 : Fin 2048) k)) (i 2).val (i 3)

/-- Every row of a [16, 2048, 2048] array normalized. -/
def rows3 (x : A3.Idx → EReal) : A3.Idx → EReal :=
  fun i => normalized (fun k => x (ix3 (i 0 : Fin 16) (i 1 : Fin 2048) k)) (i 1).val (i 2)

theorem rows4_apply (x : A4.Idx → EReal) (b : Fin 2) (h : Fin 8) (r c : Fin 2048) :
    rows4 x (ix4 b h r c) = normalized (fun k => x (ix4 b h r k)) r.val c := rfl

theorem rows3_apply (x : A3.Idx → EReal) (a : Fin 16) (r c : Fin 2048) :
    rows3 x (ix3 a r c) = normalized (fun k => x (ix3 a r k)) r.val c := rfl

/-- `rows3` at an index known by the values of its coordinates. -/
theorem rows3_apply_of (x : A3.Idx → EReal) (i : A3.Idx) (a : Fin 16) (r c : Fin 2048)
    (h0 : (i 0).val = a.val) (h1 : (i 1).val = r.val) (h2 : (i 2).val = c.val) :
    rows3 x i = normalized (fun k => x (ix3 a r k)) r.val c := by
  have e : i = ix3 a r c := by
    funext d; refine Fin.ext ?_
    match d with
    | ⟨0, _⟩ => exact h0
    | ⟨1, _⟩ => exact h1
    | ⟨2, _⟩ => exact h2
  rw [e, rows3_apply]

/-- Position (b, h, r, c) of the [2, 8, 2048, 2048] layout is position (b · 8 + h, r, c) of the [16, 2048, 2048] one. -/
theorem fuse_lt (b : Fin 2) (h : Fin 8) : b.val * 8 + h.val < 16 := by omega

/-- Re-lay as [16, 2048, 2048], normalize every row, re-lay back: every row of the original array normalized. -/
theorem rows_reshape (x : A4.Idx → EReal) (h1 : A4.ShapeCasts A3) (h2 : A3.ShapeCasts A4) :
    shapeCast A4 (rows3 (shapeCast A3 x h1)) h2 = rows4 x := by
  funext i
  obtain ⟨b, h, r, c, rfl⟩ : ∃ (b : Fin 2) (h : Fin 8) (r c : Fin 2048), i = ix4 b h r c :=
    ⟨i 0, i 1, i 2, i 3, eq_ix4 i⟩
  rw [shapeCast_apply _ h2 (ix4 b h r c) (ix3 (⟨b.val * 8 + h.val, fuse_lt b h⟩ : Fin 16) r c) (by
    rw [Shape.rowMajor_val_three, Shape.rowMajor_val_four]; rfl), rows3_apply, rows4_apply]
  refine congrArg (fun row => normalized row r.val c) (funext fun k => ?_)
  exact shapeCast_apply x h1 _ _ (by rw [Shape.rowMajor_val_three, Shape.rowMajor_val_four]; rfl)

end Cert.CausalRows

end
-- ==== Proof.Mask.lean ====
/-
  The causal mask as the two programs compute it, on 32-bit words.

  Both programs compare a column number with a row number as signed 32-bit integers.  Every number involved is below
  4096 — far below 2³¹ — so the words denote the natural numbers themselves, nothing wraps, and the signed comparison
  of the words is the comparison of the numbers.  The reference compares `r + 0 ≥ c`; the kernel, working on the block of
  256 rows that starts at row `t · 256`, compares `c ≤ t · 256 + p` for the row `p` of the block.  A selection on either
  bit is the `if` on the comparison of the numbers.
-/
import Idealize.ShloMosaic.PureOps.Ideal
import Idealize.ShloMosaic.Lib.ValueIdx

namespace Cert.CausalRows

open Idealize.ShloMosaic

/-- Below 2³¹ the signed order of two words is the order of the numbers they denote. -/
theorem sle_ofNat {a b : ℕ} (ha : a < 2 ^ 31) (hb : b < 2 ^ 31) :
    (BitVec.ofNat 32 a).sle (BitVec.ofNat 32 b) = decide (a ≤ b) := by
  have e : ∀ n : ℕ, n < 2 ^ 31 → (BitVec.ofNat 32 n).toInt = (n : Int) := by
    intro n hn
    rw [BitVec.toInt_ofNat']
    exact Int.bmod_eq_of_le (by omega) (by omega)
  rw [BitVec.sle_eq_decide, e a ha, e b hb]
  simp

/-- A selection on "the word of `a` is at most the word of `b`" is the `if` on `a ≤ b`. -/
theorem select_sle {α : Type} {a b : ℕ} (ha : a < 2 ^ 31) (hb : b < 2 ^ 31) (A B : α) :
    Scalar.select (BitVec.ofBool ((BitVec.ofNat 32 a).sle (BitVec.ofNat 32 b))) A B = if a ≤ b then A else B := by
  rw [sle_ofNat ha hb]
  by_cases h : a ≤ b
  · rw [if_pos h, decide_eq_true h]; exact if_pos rfl
  · rw [if_neg h, decide_eq_false h]; exact if_neg (by decide)

/-- The reference's mask bit at row `r`, column `c` (`r + 0 ≥ c`, signed), selecting: the `if` on `c ≤ r`. -/
theorem select_row_ge {α : Type} {r c : ℕ} (hr : r < 2048) (hc : c < 2048) (A B : α) :
    Scalar.select (IntOp.cmpi .sge (IntOp.addi (BitVec.ofNat 32 r) 0#32) (BitVec.ofNat 32 c)) A B
      = if c ≤ r then A else B := by
  have e : IntOp.addi (BitVec.ofNat 32 r) 0#32 = BitVec.ofNat 32 r := BitVec.add_zero _
  rw [e]
  exact select_sle (by omega) (by omega) A B

/-- The kernel's mask bit at row `p` of the block starting at row `t · 256`, column `c` (`c ≤ t · 256 + p`, signed),
    selecting: the `if` on the numbers. -/
theorem select_col_le {α : Type} {t p c : ℕ} (ht : t < 8) (hp : p < 256) (hc : c < 2048) (A B : α) :
    Scalar.select (IntOp.cmpi .sle (BitVec.ofNat 32 c)
        (IntOp.addi (Scalar.muli (BitVec.ofNat 32 t) 256#32) (BitVec.ofNat 32 p))) A B
      = if c ≤ t * 256 + p then A else B := by
  have e : IntOp.addi (Scalar.muli (BitVec.ofNat 32 t) 256#32) (BitVec.ofNat 32 p) = BitVec.ofNat 32 (t * 256 + p) := by
    show BitVec.ofNat 32 t * BitVec.ofNat 32 256 + BitVec.ofNat 32 p = _
    rw [BitVec.ofNat_mul_ofNat, BitVec.ofNat_add_ofNat]
  rw [e]
  exact select_sle (by omega) (by omega) A B

end Cert.CausalRows
-- ==== Proof.LibColumn.lean ====
/-
  Two layout operations of a row reduction kept as a column, read at an index.

  A sum over the last axis of an [a, b] array is an [a] vector; `keepdims` views it as an [a, 1] column, and dividing
  the array by it broadcasts the column back to [a, b].  Entry `p` of the vector is entry (p, 0) of the column, and
  entry (p, c) of the broadcast column is entry (p, 0) of the column, whatever `c`.
-/
import Idealize.ShloMosaic.Lib.ValueIdx
import Idealize.ShloMosaic.Lib.Pipeline.Value

namespace Cert.CausalRows

open Idealize.ShloMosaic Idealize.ShloMosaic.ValueIdx

variable {α : Type}

/-- An `[a]` vector cast to an `[a, 1]` column reads, at `(p, z)`, the vector at `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    rw [Shape.rowMajor_val_one, Shape.rowMajor_val_two]
    show p.val = p.val * 1 + z.val
    omega)

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.CausalRows
-- ==== Proof.KernelBlock.lean ====
/-
  What the kernel's body stores, read at an index.

  The body loads a [1, 256, 2048] block — 256 consecutive rows of one 2048 × 2048 matrix — and the grid's second
  coordinate `t` says the block starts at row `t · 256`.  Viewed as [256, 2048], every entry gets its weight; the entry
  at (p, k) is kept when `k ≤ t · 256 + p` as signed words — that is when the column is at or below the diagonal at the
  row's true position `t · 256 + p` — and is the zero word otherwise; the lane sum of row `p` is kept as a column, the
  small constant is added, the column is broadcast back and divides the kept weights.  So the stored block at
  (u, p, q) is row `p` of the loaded block, normalized at row position `t · 256 + p`, at column `q`.
-/
import proofs.«122005_j7602092114034_1_alg».proof.Proof.Gen.KernelIdeal.Skeleton
import proofs.«122005_j7602092114034_1_alg».proof.Proof.Spec
import proofs.«122005_j7602092114034_1_alg».proof.Proof.Mask
import proofs.«122005_j7602092114034_1_alg».proof.Proof.LibColumn
import Idealize.ShloMosaic.Lib.ValueLayout
import Idealize.ShloMosaic.Lib.Pipeline.Value
import Idealize.ShloMosaic.PureOps.Ideal.Laws

noncomputable section

open scoped BigOperators

namespace Cert.CausalRows.Ker

open Cert.KernelIdeal Cert.KernelIdeal.Gen Idealize.ShloMosaic Idealize.ShloMosaic.ValueIdx
open Cert.CausalRows

/-- The kept-or-zero selection at (p, k) of a block starting at row `t · 256`: the `if` on `k ≤ t · 256 + p`. -/
theorem kept_apply (t : ℕ) (ht : t < 8) (W : FVec Ideal S256x2048 .f32) (p : Fin 256) (k : Fin 2048) :
    select (cmpi .sle (iota .tc S256x2048 32 [1] iota_S256x2048_d1_w32)
        (addi (broadcast S256x2048 (Scalar.muli (BitVec.ofNat 32 t) 256#32)) (iota .tc S256x2048 32 [0] iota_S256x2048_d0_w32)))
      W (broadcast S256x2048 (FloatOps.ofBits .f32 0x00000000#32)) (ix2 p k)
      = if k.val ≤ t * 256 + p.val then W (ix2 p k) else Ideal.ofBits .f32 0x00000000#32 := by
  show Scalar.select (IntOp.cmpi .sle (iota .tc S256x2048 32 [1] iota_S256x2048_d1_w32 (ix2 p k))
      (IntOp.addi (Scalar.muli (BitVec.ofNat 32 t) 256#32) (iota .tc S256x2048 32 [0] iota_S256x2048_d0_w32 (ix2 p k))))
    (W (ix2 p k)) (Ideal.ofBits .f32 0x00000000#32) = _
  rw [iota_single_apply, iota_single_apply]
  exact select_col_le ht p.isLt k.isLt _ _

/-- The lane sum of row `p`. -/
theorem lane_sum_apply (src : FVec Ideal S256x2048 .f32) (h : S256x2048.Reduces [1] S256) (hφ : FKind.Formats .f32)
    (hacc : (0x00000000#32 : BitVec 32) = FKind.add.neutral .f32 hφ) (p : Fin 256) :
    multiReduction .add [1] S256 src 0x00000000#32 h hφ hacc (ix1 p) = ∑ k : Fin 2048, src (ix2 p k) :=
  (Ideal.multiReduction_add_single src _ h hφ hacc (ix1 p)).trans
    (Finset.sum_congr rfl fun k _ => congrArg src (funext fun a => Fin.ext (by
      match a with
      | ⟨0, _⟩ => rfl
      | ⟨1, _⟩ => rfl)))

/-- The stored block at (u, p, q): row `p` of the loaded block normalized at row position `t · 256 + p`. -/
theorem pay_apply (i : grid0.Coords) (v1 : Vec Ideal S1x256x2048 .f32) (u : Fin 1) (p : Fin 256) (q : Fin 2048) :
    k0_pay1 (F := Ideal) i v1 (ix3 u p q)
      = normalized (fun k => v1 (ix3 (0 : Fin 1) p k)) ((i 1).val * 256 + p.val) q := by
  have ht : (i 1).val < 8 := (i 1).isLt
  have hw : ∀ k : Fin 2048,
      (if k.val ≤ (i 1).val * 256 + p.val
        then weight (shapeCast S256x2048 v1 shapeCasts_S1x256x2048_S256x2048 (ix2 p k))
        else Ideal.ofBits .f32 0x00000000#32)
      = masked (fun k => v1 (ix3 (0 : Fin 1) p k)) ((i 1).val * 256 + p.val) k := fun k => by
    unfold masked
    rw [shapeCast_1ab_ab_apply v1 _ p k]
  unfold k0_pay1
  dsimp only
  refine (shapeCast_ab_1ab_apply _ _ u p q).trans ?_
  refine (divf_apply _ _ _).trans ?_
  unfold normalized
  refine congrArg₂ Ideal.div ?_ ?_
  · exact (kept_apply _ ht _ p q).trans (hw q)
  · refine (broadcastTo_a1_ab_apply _ _ p q).trans ?_
    refine (addf_apply _ _ _).trans ?_
    refine congrArg₂ (· + ·) ?_ rfl
    refine (shapeCast_a_a1_apply _ _ p (0 : Fin 1)).trans ?_
    refine (lane_sum_apply _ _ _ _ p).trans ?_
    exact Finset.sum_congr rfl fun k _ => (kept_apply _ ht _ p k).trans (hw k)

end Cert.CausalRows.Ker

end
-- ==== Proof.KernelArray.lean ====
/-
  From the blocks the grid points write back to the whole output array of the kernel's region.

  The grid has 16 × 8 points; point (a, t) stages rows `t · 256 … t · 256 + 255` of matrix `a` of the [16, 2048, 2048]
  input, and writes back the same rows of matrix `a` of the output.  By the body's value (row `p` of the block normalized at
  row position `t · 256 + p`) what point (a, t) writes back is exactly its block of `rows3` of the input array: a row of the
  block IS a row of the array, at that row position.  The 128 blocks tile the output, so after the last write-back the
  output array is `rows3` of the input array.
-/
import proofs.«122005_j7602092114034_1_alg».proof.Proof.KernelIdealFrame
import proofs.«122005_j7602092114034_1_alg».proof.Proof.KernelBlock
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.CausalRows.Arr

open Cert.KernelIdeal Cert.KernelIdeal.Gen Cert.KernelIdeal.GenP Cert.CausalRows

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the 128 grid points: the input block moves with the output block, neither
    moves along the last axis, the second block index is the grid's second coordinate, and both stay in range. -/
theorem idx_facts : ∀ t : Fin cfg0.N,
    win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0
    ∧ (grid0.coords t 1).val = win0_1.index t (1 : Fin 3)
    ∧ win0_1.index t (0 : Fin 3) < 16 ∧ win0_1.index t (1 : Fin 3) < 8 :=
  (by decide +kernel : ∀ t : Fin grid0.N, _)

/-- Every (matrix, row block) pair is some grid point's. -/
theorem idx_onto : ∀ (q0 : Fin 16) (q1 : Fin 8), ∃ t : Fin cfg0.N, win0_1.index t = ![q0.val, q1.val, 0] :=
  (by decide +kernel : ∀ (q0 : Fin 16) (q1 : Fin 8), ∃ t : Fin grid0.N, win0_1.index t = ![q0.val, q1.val, 0])

/-- The input block at point `t`, read at a block index, is the input array at block index × block size + the index. -/
theorem iblk_apply (c : Dev nD) (t : Fin cfg0.N) (y : S1x256x2048.Idx) (k : S16x2048x2048.Idx)
    (hk0 : win0_0.index t (0 : Fin 3) * 1 + 1 * (y 0).val = (k 0).val)
    (hk1 : win0_0.index t (1 : Fin 3) * 256 + 1 * (y 1).val = (k 1).val)
    (hk2 : win0_0.index t (2 : Fin 3) * 2048 + 1 * (y 2).val = (k 2).val) :
    (iblk m c 0 t : Vec Ideal S1x256x2048 .f32) y = (V m c main_v0 : S16x2048x2048.Idx → Elt Ideal .f32) k := by
  unfold iblk
  rw [View.read_apply]
  show V m c main_v0 _ = V m c main_v0 _
  refine congrArg (V m c main_v0) (funext fun a => Fin.ext ?_)
  match a with
  | ⟨0, _⟩ => exact hk0
  | ⟨1, _⟩ => exact hk1
  | ⟨2, _⟩ => exact hk2

/-- What point `t` stores, at a block index: `rows3` of the input array at that index's place in the array. -/
theorem block_at (c : Dev nD) (t : Fin cfg0.N) (y : S1x256x2048.Idx) :
    k0_pay1 (F := Ideal) (grid0.coords t) (iblk m c 0 t) y
      = rows3 (V m c main_v0) (((cfg0.win 1).blk t).view.emb y) := by
  obtain ⟨e0, e1, e2, e3, e4, e5, e6⟩ := idx_facts t
  obtain ⟨u, p, q, rfl⟩ : ∃ (u : Fin 1) (p : Fin 256) (q : Fin 2048), y = ix3 u p q := ⟨y 0, y 1, y 2, eq_ix3 y⟩
  have hu : u.val = 0 := by have := u.isLt; omega
  have hp : p.val < 256 := p.isLt
  have hr : win0_1.index t (1 : Fin 3) * 256 + p.val < 2048 := by omega
  refine (Ker.pay_apply _ _ u p q).trans (Eq.trans ?_
    (rows3_apply_of (V m c main_v0) _ ⟨win0_1.index t (0 : Fin 3), e5⟩ ⟨win0_1.index t (1 : Fin 3) * 256 + p.val, hr⟩ q
      ?_ ?_ ?_).symm)
  · refine congrArg₂ (fun row r => normalized row r q) (funext fun k => ?_) (by rw [e4])
    refine iblk_apply m c t (ix3 (0 : Fin 1) p k) _ ?_ ?_ ?_
    · show win0_0.index t (0 : Fin 3) * 1 + 1 * 0 = win0_1.index t (0 : Fin 3); omega
    · show win0_0.index t (1 : Fin 3) * 256 + 1 * p.val = win0_1.index t (1 : Fin 3) * 256 + p.val; omega
    · show win0_0.index t (2 : Fin 3) * 2048 + 1 * k.val = k.val; omega
  · show win0_1.index t (0 : Fin 3) * 1 + 1 * u.val = win0_1.index t (0 : Fin 3); omega
  · show win0_1.index t (1 : Fin 3) * 256 + 1 * p.val = win0_1.index t (1 : Fin 3) * 256 + p.val; omega
  · show win0_1.index t (2 : Fin 3) * 2048 + 1 * q.val = q.val; omega

/-- What point `t` writes back is its block of `rows3` of the input array. -/
theorem flushed_eq (c : Dev nD) (t : Fin cfg0.N) :
    (dats m 0 c).flushed 1 t = ((cfg0.win 1).blk t).view.read (Elt Ideal) (rows3 (V m c main_v0)) := by
  show (cfg0.win 1).cut (grid0.coords t) ((dats m 0 c).after 1 t) = _
  rw [after0_1]
  unfold out0_1
  rw [View.canon_unit_zero hz]
  simp only [View.ld_unit_zero (S := S1x256x2048) hz]
  funext j
  exact block_at m c t j

/-- An index of the output array is in point `t`'s block iff each coordinate is in the block's range on its axis. -/
theorem mem_blk (t : Fin cfg0.N) (i : S16x2048x2048.Idx) :
    i ∈ ((cfg0.win 1).blk t).view.set ↔ ∀ a : Fin 3, win0_1.index t a * S1x256x2048.size a ≤ (i a).val
      ∧ (i a).val < win0_1.index t a * S1x256x2048.size a + S1x256x2048.size a := by
  show i ∈ ((View.whole main_v1).slice (win0_1.rect t)).set ↔ _
  rw [View.set_slice_whole, Rect.mem_set_unit]
  exact Iff.rfl

/-- Row `r` of matrix `a` lies in the block of the point at (a, r / 256). -/
theorem cover (i : S16x2048x2048.Idx) :
    ∃ t : Fin cfg0.N, (cfg0.win 1).flush t = true ∧ i ∈ ((cfg0.win 1).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_1.index t (0 : Fin 3) = (i 0).val := congrFun ht 0
  have q1 : win0_1.index t (1 : Fin 3) = (i 1).val / 256 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 2048 ≤ (i 2).val ∧ (i 2).val < win0_1.index t (2 : Fin 3) * 2048 + 2048; omega

/-- The output array after the region: every row of the input array normalized. -/
theorem final (c : Dev nD) : (dats m 0 c).arrAt 1 cfg0.N = rows3 (V m c main_v0) :=
  (dats m 0 c).arrAt_eq_of_cover 1 (rows3 (V m c main_v0)) (fun t _ => flushed_eq m c t) cover

end Cert.CausalRows.Arr

end
-- ==== Proof.KernelRun.lean ====
/-
  The whole idealized kernel program: re-lay, region, re-lay back.

  Before the region the host re-lays the [2, 8, 2048, 2048] argument as [16, 2048, 2048]; the region leaves `rows3` of
  that array in its output; after the region the host re-lays the output as [2, 8, 2048, 2048].  By `rows_reshape` the
  result is `rows4` of the argument, and the argument is unchanged.
-/
import proofs.«122005_j7602092114034_1_alg».proof.Proof.KernelArray
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.CausalRows.Run

open Cert.KernelIdeal Cert.KernelIdeal.Gen Cert.KernelIdeal.GenP Cert.CausalRows

variable (m : (ℓ : Loc nD τ sig) → Buf (Elt Ideal) ℓ) (ρ : Dev nD → PrngReg)

/-- The region finds its input array at the argument re-laid as [16, 2048, 2048]. -/
theorem input_eq (c : Dev nD) :
    (V m c main_v0 : S16x2048x2048.Idx → Elt Ideal .f32)
      = shapeCast S16x2048x2048 (m ((c : Thread nD τ).loc main_arg0)) shapeCasts_S2x8x2048x2048_S16x2048x2048 := by
  show StableHlo.after hostOps0 (fun b => m (c, b)) (Proc.devRef .tc main_v0) = _
  after_results
  rfl

/-- The result buffer after the lines that follow the region. -/
theorem result_eq (c : Dev nD) :
    (Pipeline.afterTail₀ cfgs (dats m) 0 (V0 m) [hostOps1] c main_v2 : S2x8x2048x2048.Idx → Elt Ideal .f32)
      = rows4 (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = rows3 (V m c main_v0) :=
    (Pipeline.withArrays_arr spec0 launch0.win.arr_inj c _ _ 1).trans (Arr.final m c)
  rw [e, input_eq]
  exact rows_reshape _ _ _

/-- Every weakly fair execution of the idealized kernel program ends with the result at every row of the argument
    normalized, and the argument unchanged. -/
theorem run : θ_run defs (onTc (τ := τ) (main (F := Ideal))) ⟨m, fun _ => 0, ρ⟩ fun r => ∀ c : Dev nD,
      r.2.mem ((c.tc : Thread nD τ).loc main_v2) = rows4 (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.CausalRows.Run

end
-- ==== Proof.RefRows.lean ====
/-
  The reference computes `rows4`.

  Read one operation at a time (the generated read-at-an-index lemmas), the reference's result at (b, h, r, c) is its
  masked weight there divided by the sum over the last axis of the masked weights of row (b, h, r), started from the
  zero word, plus the small constant: the masked weight is the weight of the entry where `r + 0 ≥ c` as signed words —
  that is where `c ≤ r` — and the zero word elsewhere; the sum started from the zero word is the sum.
-/
import proofs.«122005_j7602092114034_1_alg».proof.Proof.Gen.ReferenceIdeal.Read
import proofs.«122005_j7602092114034_1_alg».proof.Proof.Spec
import proofs.«122005_j7602092114034_1_alg».proof.Proof.Mask

noncomputable section

open scoped BigOperators

namespace Cert.CausalRows.Ref

open Cert.ReferenceIdeal Cert.ReferenceIdeal.Gen Cert.ReferenceIdeal.Read Idealize.ShloMosaic Idealize.ShloMosaic.ValueIdx
open Cert.CausalRows

variable (x : (⟨S2x8x2048x2048, .f32⟩ : BufTy).Contents (Elt Ideal))

/-- Before the mask: the weight of the entry. -/
theorem weight_apply (i : S2x8x2048x2048.Idx) : val_main_v11 (F := Ideal) x i = weight (x i) := rfl

/-- The masked weight at (b, h, r, c). -/
theorem masked_apply (b : Fin 2) (h : Fin 8) (r c : Fin 2048) :
    val_main_v14 (F := Ideal) x (ix4 b h r c) = masked (fun k => x (ix4 b h r k)) r.val c := by
  rw [val_main_v14_apply, val_main_call1_v1_apply, val_main_v13_apply, weight_apply]
  show Scalar.select (Scalar.select (IntOp.cmpi .sge (IntOp.addi (BitVec.ofNat 32 r.val) 0#32) (BitVec.ofNat 32 c.val)) 1#1 0#1)
      (weight (x (ix4 b h r c))) (Ideal.ofBits .f32 0x00000000#32) = _
  rw [select_row_ge r.isLt c.isLt]
  unfold masked
  by_cases hc : c.val ≤ r.val
  · rw [if_pos hc, if_pos hc]; exact select_one _ _
  · rw [if_neg hc, if_neg hc]; exact select_zero _ _

/-- The reference's result is every row normalized. -/
theorem result_eq : val_main_v20 (F := Ideal) x = rows4 x := by
  funext i
  obtain ⟨b, h, r, c, rfl⟩ : ∃ (b : Fin 2) (h : Fin 8) (r c : Fin 2048), i = ix4 b h r c :=
    ⟨i 0, i 1, i 2, i 3, eq_ix4 i⟩
  have e15 : ∀ k : Fin 2048, idx_main_v15 (idx_main_v16 (idx_main_v19 (ix4 b h r c))) k = ix4 b h r k := fun k =>
    funext fun a => Fin.ext (by match a with | ⟨0, _⟩ => rfl | ⟨1, _⟩ => rfl | ⟨2, _⟩ => rfl | ⟨3, _⟩ => rfl)
  rw [val_main_v20_apply, val_main_v19_apply, val_main_v18_apply, val_main_v16_apply, val_main_v15_apply,
    val_main_v17_apply, masked_apply, rows4_apply]
  simp only [e15, masked_apply]
  show Ideal.div _ ((Ideal.ofBits .f32 0x00000000#32 + _) + Ideal.ofBits .f32 0x2B8CBCCC#32) = _
  rw [Ideal.ofBits_zero_f32, zero_add]
  rfl

end Cert.CausalRows.Ref

end
-- ==== Proof.lean ====
/-
  The five claims about one kernel and its reference.

  The kernel normalizes the rows of sixteen 2048 × 2048 matrices under a causal mask: each entry `v` of a row gets the
  weight `(½ · (a + √(a² + 4)))²` with `a = 2 · (v − ½)`, the weights at or below the diagonal are kept and the others
  set to zero, and each kept weight is divided by the sum of its row's kept weights plus a small constant.  The kernel
  works on the array re-laid as [16, 2048, 2048], 256 rows at a time, and finds a row's position from the grid position
  of its block; the reference works on the [2, 8, 2048, 2048] array at once with a lower-triangular mask.  Read on the
  extended reals both are the same function of the argument, `rows4` (Proof/Spec.lean): no algebraic law is needed
  beyond a sum started from zero being the sum, so the precondition (finite inputs) is never opened.

  The kernel side: the body's stored block read at an index (Proof/KernelBlock.lean, over Proof/Mask.lean for the mask
  and Proof/LibColumn.lean for the row sum kept as a column), the blocks assembled into the region's output array
  (Proof/KernelArray.lean), the host's two re-layings around the region (Proof/KernelRun.lean).  The reference side: its
  run read one operation at a time (Proof/RefRows.lean).  The two programs' frames (every execution ends, nothing
  faults, the argument ends unchanged) come from the frame certificates (Proof/KernelFrame.lean,
  Proof/KernelIdealFrame.lean) and, for the reference, from its run.  The idealization rewrote nothing, so there is
  nothing to preserve.
-/
import proofs.«122005_j7602092114034_1_alg».proof.Defs
import proofs.«122005_j7602092114034_1_alg».proof.Proof.KernelFrame
import proofs.«122005_j7602092114034_1_alg».proof.Proof.KernelIdealFrame
import proofs.«122005_j7602092114034_1_alg».proof.Proof.KernelRun
import proofs.«122005_j7602092114034_1_alg».proof.Proof.RefRows
import proofs.«122005_j7602092114034_1_alg».proof.Proof.Gen.ReferenceIdeal
import proofs.«122005_j7602092114034_1_alg».proof.Proof.Gen.ReferenceIdeal.Run
import proofs.«122005_j7602092114034_1_alg».proof.Proof.Gen.ReferenceIdeal.Read
import proofs.«122005_j7602092114034_1_alg».proof.Proof.Gen.Pre_finite_inputs
import Idealize.ShloMosaic.Adequacy
import Idealize.ShloMosaic.Init

noncomputable section

namespace Cert.Proof

open Idealize.ShloMosaic Idealize.SL.Sem

/-- The kernel as printed runs and leaves its argument unchanged. -/
theorem frame_kernel : @Cert.frame_Kernel Cert.Kernel.Gen.facts Cert.Pre_finite_inputs.Gen.facts :=
  fun m ρ _ => Cert.Kernel.GenP.frame m ρ

/-- So does the kernel read on the extended reals. -/
theorem frame_kernelIdeal : @Cert.frame_KernelIdeal Cert.KernelIdeal.Gen.facts Cert.Pre_finite_inputs.Gen.facts :=
  fun m ρ _ => Cert.KernelIdeal.GenP.frame m ρ

/-- And the reference: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From arguments that agree, both programs end with every row of the argument normalized. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.CausalRows.rows4 (m ((c.tc : Thread Cert.KernelIdeal.nD Cert.KernelIdeal.τ).loc Cert.KernelIdeal.main_arg0)),
    Cert.CausalRows.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.CausalRows.Ref.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
